-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x3 : Shape := ⟨4, ![32, 512, 512, 3]⟩
abbrev S_ : Shape := ⟨0, ![]⟩

class Facts : Prop where
  bcast_S_S32x512x512x3 : S_.BroadcastsInDim S32x512x512x3 (![] : Fin 0 → Fin S32x512x512x3.rank)
  reducesTo_S32x512x512x3_S_d0_1_2_3 : S32x512x512x3.ReducesTo [0, 1, 2, 3] S_
  h_S_ : 0 < S_.numel

variable [Facts]

def fn {F : FTy → Type} [FloatOps F] (main_arg0 : FVec F S32x512x512x3 .f32) : IVec S_ 1 :=
  let main_v0 : FVec F S32x512x512x3 .f32 := Host.absf main_arg0
  let main_cst : FVec F S_ .f32 := constant S_ .f32 0x7F800000#32
  let main_v1 : FVec F S32x512x512x3 .f32 := broadcastInDim S32x512x512x3 ![] bcast_S_S32x512x512x3 main_cst
  let main_v2 : IVec S32x512x512x3 1 := cmpf .olt main_v0 main_v1
  let main_c : IVec S_ 1 := constantI S_ 1 1#1
  let main_v3 : IVec S_ 1 := (fun x v => Host.reduce IntOp.andi x v reducesTo_S32x512x512x3_S_d0_1_2_3 h_S_) main_v2 main_c
  main_v3
-- ==== Kernel.lean ====
abbrev S32x512x512x3 : Shape := ⟨4, ![32, 512, 512, 3]⟩
abbrev S_ : Shape := ⟨0, ![]⟩
abbrev S32x515x515x3 : Shape := ⟨4, ![32, 515, 515, 3]⟩
abbrev S32x515x1545 : Shape := ⟨3, ![32, 515, 1545]⟩
abbrev S32x512x1536 : Shape := ⟨3, ![32, 512, 1536]⟩
abbrev S1x515x1545 : Shape := ⟨3, ![1, 515, 1545]⟩
abbrev S1x512x1536 : Shape := ⟨3, ![1, 512, 1536]⟩
abbrev S1x131x1545 : Shape := ⟨3, ![1, 131, 1545]⟩
abbrev S1x128x1536 : Shape := ⟨3, ![1, 128, 1536]⟩

abbrev nBuf : Space → Nat
  | .hbm => 7
  | .vmem => 4
  | .smem => 0
  | _ => 0

abbrev bufTy : (tb : Table) → Fin (tcTables nBuf tb) → BufTy
  | .hbm, ⟨0, _⟩ => ⟨S32x512x512x3, .f32⟩
  | .hbm, ⟨1, _⟩ => ⟨S_, .i32⟩
  | .hbm, ⟨2, _⟩ => ⟨S_, .f32⟩
  | .hbm, ⟨3, _⟩ => ⟨S32x515x515x3, .f32⟩
  | .hbm, ⟨4, _⟩ => ⟨S32x515x1545, .f32⟩
  | .hbm, ⟨5, _⟩ => ⟨S32x512x1536, .f32⟩
  | .hbm, ⟨6, _⟩ => ⟨S32x512x512x3, .f32⟩
  | .local _ .vmem, ⟨0, _⟩ => ⟨S1x515x1545, .f32⟩
  | .local _ .vmem, ⟨1, _⟩ => ⟨S1x515x1545, .f32⟩
  | .local _ .vmem, ⟨2, _⟩ => ⟨S1x512x1536, .f32⟩
  | .local _ .vmem, ⟨3, _⟩ => ⟨S1x512x1536, .f32⟩
  | _, _ => ⟨S32x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  v3
def k0_off1 (k0_t1 : Fin k0_t1_loop.trips) : Fin 3 → Nat :=
  let c0 : Index := 0#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v5 : Index := Scalar.indexCast v4
  let c0_3 : Index := 0#32
  ![0, v5.toNat, 0]
def k0_off2 (k0_t1 : Fin k0_t1_loop.trips) : Fin 3 → Nat :=
  let c0_21 : Index := 0#32
  let c0_i32_2 : BitVec 32 := 0#32
  let c0_i32 : BitVec 32 := 0#32
  let c1_i32 : BitVec 32 := 1#32
  let arg3 : BitVec 32 := Scf.iv c0_i32 c1_i32 k0_t1
  let c1_i32_1 : BitVec 32 := 1#32
  let v1 : BitVec 32 := Scalar.muli arg3 c1_i32_1
  let v2 : BitVec 32 := Scalar.addi c0_i32_2 v1
  let c128_i32 : BitVec 32 := 128#32
  let v3 : BitVec 32 := Scalar.muli v2 c128_i32
  let v4 : BitVec 32 := v3
  let v80 : Index := Scalar.indexCast v4
  let c0_22 : Index := 0#32
  ![0, v80.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x515x1545 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S32x512x512x3_S32x515x515x3_000_210_210_000 : S32x512x512x3.Pads (![0, 2, 2, 0] : Fin 4 → Nat) ![0, 1, 1, 0] ![0, 0, 0, 0] S32x515x515x3
  h_S_ : 0 < S_.numel
  shapeCasts_S32x515x515x3_S32x515x1545 : S32x515x515x3.ShapeCasts S32x515x1545
  h_S1x131x1545 : 0 < S1x131x1545.numel
  shapeCasts_S1x131x1545_S1x131x1545 : S1x131x1545.ShapeCasts S1x131x1545
  slices_S1x131x1545_o0_1_0_S1x128x1536 : S1x131x1545.Slices ![0, 1, 0] S1x128x1536
  slices_S1x131x1545_o0_1_3_S1x128x1536 : S1x131x1545.Slices ![0, 1, 3] S1x128x1536
  slices_S1x131x1545_o0_1_6_S1x128x1536 : S1x131x1545.Slices ![0, 1, 6] S1x128x1536
  slices_S1x131x1545_o0_1_9_S1x128x1536 : S1x131x1545.Slices ![0, 1, 9] S1x128x1536
  slices_S1x131x1545_o0_2_0_S1x128x1536 : S1x131x1545.Slices ![0, 2, 0] S1x128x1536
  slices_S1x131x1545_o0_2_3_S1x128x1536 : S1x131x1545.Slices ![0, 2, 3] S1x128x1536
  slices_S1x131x1545_o0_2_6_S1x128x1536 : S1x131x1545.Slices ![0, 2, 6] S1x128x1536
  slices_S1x131x1545_o0_2_9_S1x128x1536 : S1x131x1545.Slices ![0, 2, 9] S1x128x1536
  slices_S1x131x1545_o0_3_0_S1x128x1536 : S1x131x1545.Slices ![0, 3, 0] S1x128x1536
  slices_S1x131x1545_o0_3_3_S1x128x1536 : S1x131x1545.Slices ![0, 3, 3] S1x128x1536
  slices_S1x131x1545_o0_3_6_S1x128x1536 : S1x131x1545.Slices ![0, 3, 6] S1x128x1536
  slices_S1x131x1545_o0_3_9_S1x128x1536 : S1x131x1545.Slices ![0, 3, 9] S1x128x1536
  h_S1x128x1536 : 0 < S1x128x1536.numel
  shapeCasts_S32x512x1536_S32x512x512x3 : S32x512x1536.ShapeCasts S32x512x512x3
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x131x1545.size a ≤ S1x515x1545.size a
  k0_off2_inb : ∀ k0_t1 : Fin k0_t1_loop.trips, ∀ a, (k0_off2 k0_t1) a + S1x128x1536.size a ≤ S1x512x1536.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x515x1545.size a ≤ S32x515x1545.size a
  hwx0_0 : ∀ i : grid0.Coords, EltTy.bits .f32 = 32 ∨ (Rect.block (s := S32x515x1545) S1x515x1545.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1536.size a ≤ S32x512x1536.size a
  hwx0_1 : ∀ i : grid0.Coords, EltTy.bits .f32 = 32 ∨ (Rect.block (s := S32x512x1536) S1x512x1536.size (cc0_transform_1 i) (hinb0_1 i)).WholeWords (EltTy.packing .f32)

variable [Facts₀]

abbrev win0_0 : Pipeline.Window sig grid0 :=
  Pipeline.Window.ofSpec (Memref.whole main_v1) S1x515x1545.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x512x1536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x512x512x3 : Shape := ⟨4, ![32, 512, 512, 3]⟩
abbrev S_ : Shape := ⟨0, ![]⟩
abbrev S32x515x515x3 : Shape := ⟨4, ![32, 515, 515, 3]⟩

abbrev nBuf : Space → Nat
  | .hbm => 94
  | .vmem => 0
  | .smem => 0
  | _ => 0

abbrev bufTy : (tb : Table) → Fin (tcTables nBuf tb) → BufTy
  | .hbm, ⟨0, _⟩ => ⟨S32x512x512x3, .f32⟩
  | .hbm, ⟨1, _⟩ => ⟨S_, .i32⟩
  | .hbm, ⟨2, _⟩ => ⟨S_, .f32⟩
  | .hbm, ⟨3, _⟩ => ⟨S32x515x515x3, .f32⟩
  | .hbm, ⟨4, _⟩ => ⟨S32x512x512x3, .f32⟩
  | .hbm, ⟨5, _⟩ => ⟨S32x512x512x3, .f32⟩
  | .hbm, ⟨6, _⟩ => ⟨S32x512x512x3, .f32⟩
  | .hbm, ⟨7, _⟩ => ⟨S32x512x512x3, .f32⟩
  | .hbm, ⟨8, _⟩ => ⟨S32x512x512x3, .f32⟩
  | .hbm, ⟨9, _⟩ => ⟨S32x512x512x3, .f32⟩
  | .hbm, ⟨10, _⟩ => ⟨S32x512x512x3, .f32⟩
  | .hbm, ⟨11, _⟩ => ⟨S32x512x512x3, .f32⟩
  | .hbm, ⟨12, _⟩ => ⟨S32x512x512x3, .f32⟩
  | .hbm, ⟨13, _⟩ => ⟨S32x512x512x3, .f32⟩
  | .hbm, ⟨14, _⟩ => ⟨S32x512x512x3, .f32⟩
  | .hbm, ⟨15, _⟩ => ⟨S32x512x512x3, .f32⟩
  | .hbm, ⟨16, _⟩ => ⟨S32x512x512x3, .f32⟩
  | .hbm, ⟨17, _⟩ => ⟨S_, .f32⟩
  | .hbm, ⟨18, _⟩ => ⟨S32x512x512x3, .f32⟩
  | .hbm, ⟨19, _⟩ => ⟨S32x512x512x3, .f32⟩
  | .hbm, ⟨20, _⟩ => ⟨S32x512x512x3, .f32⟩
  | .hbm, ⟨21, _⟩ => ⟨S_, .f32⟩
  | .hbm, ⟨22, _⟩ => ⟨S32x512x512x3, .f32⟩
  | .hbm, ⟨23, _⟩ => ⟨S32x512x512x3, .i1⟩
  | .hbm, ⟨24, _⟩ => ⟨S_, .f32⟩
  | .hbm, ⟨25, _⟩ => ⟨S32x512x512x3, .f32⟩
  | .hbm, ⟨26, _⟩ => ⟨S32x512x512x3, .f32⟩
  | .hbm, ⟨27, _⟩ => ⟨S32x512x512x3, .f32⟩
  | .hbm, ⟨28, _⟩ => ⟨S32x512x512x3, .f32⟩
  | .hbm, ⟨29, _⟩ => ⟨S32x512x512x3, .f32⟩
  | .hbm, ⟨30, _⟩ => ⟨S_, .f32⟩
  | .hbm, ⟨31, _⟩ => ⟨S32x512x512x3, .f32⟩
  | .hbm, ⟨32, _⟩ => ⟨S32x512x512x3, .i1⟩
  | .hbm, ⟨33, _⟩ => ⟨S_, .f32⟩
  | .hbm, ⟨34, _⟩ => ⟨S32x512x512x3, .f32⟩
  | .hbm, ⟨35, _⟩ => ⟨S32x512x512x3, .f32⟩
  | .hbm, ⟨36, _⟩ => ⟨S32x512x512x3, .f32⟩
  | .hbm, ⟨37, _⟩ => ⟨S32x512x512x3, .f32⟩
  | .hbm, ⟨38, _⟩ => ⟨S32x512x512x3, .f32⟩
  | .hbm, ⟨39, _⟩ => ⟨S_, .f32⟩
  | .hbm, ⟨40, _⟩ => ⟨S32x512x512x3, .f32⟩
  | .hbm, ⟨41, _⟩ => ⟨S32x512x512x3, .i1⟩
  | .hbm, ⟨42, _⟩ => ⟨S_, .f32⟩
  | .hbm, ⟨43, _⟩ => ⟨S32x512x512x3, .f32⟩
  | .hbm, ⟨44, _⟩ => ⟨S32x512x512x3, .f32⟩
  | .hbm, ⟨45, _⟩ => ⟨S32x512x512x3, .f32⟩
  | .hbm, ⟨46, _⟩ => ⟨S32x512x512x3, .f32⟩
  | .hbm, ⟨47, _⟩ => ⟨S32x512x512x3, .f32⟩
  | .hbm, ⟨48, _⟩ => ⟨S_, .f32⟩
  | .hbm, ⟨49, _⟩ => ⟨S32x512x512x3, .f32⟩
  | .hbm, ⟨50, _⟩ => ⟨S32x512x512x3, .i1⟩
  | .hbm, ⟨51, _⟩ => ⟨S_, .f32⟩
  | .hbm, ⟨52, _⟩ => ⟨S32x512x512x3, .f32⟩
  | .hbm, ⟨53, _⟩ => ⟨S32x512x512x3, .f32⟩
  | .hbm, ⟨54, _⟩ => ⟨S32x512x512x3, .f32⟩
  | .hbm, ⟨55, _⟩ => ⟨S32x512x512x3, .f32⟩
  | .hbm, ⟨56, _⟩ => ⟨S32x512x512x3, .f32⟩
  | .hbm, ⟨57, _⟩ => ⟨S_, .f32⟩
  | .hbm, ⟨58, _⟩ => ⟨S32x512x512x3, .f32⟩
  | .hbm, ⟨59, _⟩ => ⟨S32x512x512x3, .i1⟩
  | .hbm, ⟨60, _⟩ => ⟨S_, .f32⟩
  | .hbm, ⟨61, _⟩ => ⟨S32x512x512x3, .f32⟩
  | .hbm, ⟨62, _⟩ => ⟨S32x512x512x3, .f32⟩
  | .hbm, ⟨63, _⟩ => ⟨S32x512x512x3, .f32⟩
  | .hbm, ⟨64, _⟩ => ⟨S32x512x512x3, .f32⟩
  | .hbm, ⟨65, _⟩ => ⟨S32x512x512x3, .f32⟩
  | .hbm, ⟨66, _⟩ => ⟨S_, .f32⟩
  | .hbm, ⟨67, _⟩ => ⟨S32x512x512x3, .f32⟩
  | .hbm, ⟨68, _⟩ => ⟨S32x512x512x3, .i1⟩
  | .hbm, ⟨69, _⟩ => ⟨S_, .f32⟩
  | .hbm, ⟨70, _⟩ => ⟨S32x512x512x3, .f32⟩
  | .hbm, ⟨71, _⟩ => ⟨S32x512x512x3, .f32⟩
  | .hbm, ⟨72, _⟩ => ⟨S32x512x512x3, .f32⟩
  | .hbm, ⟨73, _⟩ => ⟨S32x512x512x3, .f32⟩
  | .hbm, ⟨74, _⟩ => ⟨S32x512x512x3, .f32⟩
  | .hbm, ⟨75, _⟩ => ⟨S_, .f32⟩
  | .hbm, ⟨76, _⟩ => ⟨S32x512x512x3, .f32⟩
  | .hbm, ⟨77, _⟩ => ⟨S32x512x512x3, .i1⟩
  | .hbm, ⟨78, _⟩ => ⟨S_, .f32⟩
  | .hbm, ⟨79, _⟩ => ⟨S32x512x512x3, .f32⟩
  | .hbm, ⟨80, _⟩ => ⟨S32x512x512x3, .f32⟩
  | .hbm, ⟨81, _⟩ => ⟨S32x512x512x3, .f32⟩
  | .hbm, ⟨82, _⟩ => ⟨S32x512x512x3, .f32⟩
  | .hbm, ⟨83, _⟩ => ⟨S32x512x512x3, .f32⟩
  | .hbm, ⟨84, _⟩ => ⟨S_, .f32⟩
  | .hbm, ⟨85, _⟩ => ⟨S32x512x512x3, .f32⟩
  | .hbm, ⟨86, _⟩ => ⟨S32x512x512x3, .i1⟩
  | .hbm, ⟨87, _⟩ => ⟨S_, .f32⟩
  | .hbm, ⟨88, _⟩ => ⟨S32x512x512x3, .f32⟩
  | .hbm, ⟨89, _⟩ => ⟨S32x512x512x3, .f32⟩
  | .hbm, ⟨90, _⟩ => ⟨S32x512x512x3, .f32⟩
  | .hbm, ⟨91, _⟩ => ⟨S_, .f32⟩
  | .hbm, ⟨92, _⟩ => ⟨S32x512x512x3, .f32⟩
  | .hbm, ⟨93, _⟩ => ⟨S32x512x512x3, .f32⟩
  | _, _ => ⟨S32x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_cst_9 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_cst_13 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_16 : Ref sig .tc := ⟨.hbm, 91, rfl⟩
abbrev main_v71 : Ref sig .tc := ⟨.hbm, 92, rfl⟩
abbrev main_v72 : Ref sig .tc := ⟨.hbm, 93, rfl⟩

abbrev nD : Nat := 1
abbrev τ : Topo := Topo.v7x

variable {F : FTy → Type} [FloatOps F]

class Facts₀ : Prop where
  pads_S32x512x512x3_S32x515x515x3_000_210_210_000 : S32x512x512x3.Pads (![0, 2, 2, 0] : Fin 4 → Nat) ![0, 1, 1, 0] ![0, 0, 0, 0] S32x515x515x3
  h_S_ : 0 < S_.numel
  slices_S32x515x515x3_S32x512x512x3_0_1_0_0 : S32x515x515x3.Slices ![0, 1, 0, 0] S32x512x512x3
  slices_S32x515x515x3_S32x512x512x3_0_1_1_0 : S32x515x515x3.Slices ![0, 1, 1, 0] S32x512x512x3
  slices_S32x515x515x3_S32x512x512x3_0_1_2_0 : S32x515x515x3.Slices ![0, 1, 2, 0] S32x512x512x3
  slices_S32x515x515x3_S32x512x512x3_0_1_3_0 : S32x515x515x3.Slices ![0, 1, 3, 0] S32x512x512x3
  slices_S32x515x515x3_S32x512x512x3_0_2_0_0 : S32x515x515x3.Slices ![0, 2, 0, 0] S32x512x512x3
  slices_S32x515x515x3_S32x512x512x3_0_2_1_0 : S32x515x515x3.Slices ![0, 2, 1, 0] S32x512x512x3
  slices_S32x515x515x3_S32x512x512x3_0_2_2_0 : S32x515x515x3.Slices ![0, 2, 2, 0] S32x512x512x3
  slices_S32x515x515x3_S32x512x512x3_0_2_3_0 : S32x515x515x3.Slices ![0, 2, 3, 0] S32x512x512x3
  slices_S32x515x515x3_S32x512x512x3_0_3_0_0 : S32x515x515x3.Slices ![0, 3, 0, 0] S32x512x512x3
  slices_S32x515x515x3_S32x512x512x3_0_3_1_0 : S32x515x515x3.Slices ![0, 3, 1, 0] S32x512x512x3
  slices_S32x515x515x3_S32x512x512x3_0_3_2_0 : S32x515x515x3.Slices ![0, 3, 2, 0] S32x512x512x3
  slices_S32x515x515x3_S32x512x512x3_0_3_3_0 : S32x515x515x3.Slices ![0, 3, 3, 0] S32x512x512x3
  bcast_S_S32x512x512x3 : S_.BroadcastsInDim S32x512x512x3 (![] : Fin 0 → Fin S32x512x512x3.rank)

variable [Facts₀]

class Facts : Prop extends Facts₀ where

variable [Facts]
-- ==== Proof.Spec.lean ====
/-
  The local-difference-pattern code, as mathematics.

  For a pixel of a zero-padded image, take the 3 × 4 patch of neighbours `y r s` (rows 1..3, columns 0..3 of the 4 × 4 window
  whose corner is the pixel), and the centre's horizontal derivative `pc = y 2 1 - y 2 2`. Eight horizontal differences of the
  patch are compared in sign with `pc`: a stage adds its weight (128, 64, 32, 1, 16, 2, 4, 8) to the running code exactly when
  `(a - b) * pc ≥ 0` FAILS. The code is the sum of the weights added, divided by 255.

  Everything is stated over an arbitrary float instance, with the float operations as the instance gives them, so that one
  function describes the pixel's code on both sides of the comparison; nothing here depends on a program.
-/
import Idealize.ShloMosaic.PureOps
import Idealize.ShloMosaic.Lib.ValueIdx
import Idealize.ShloMosaic.Lib.Pipeline.Value

noncomputable section

namespace Cert.Ldp

open Idealize.ShloMosaic Idealize.ShloMosaic.ValueIdx

variable {F : FTy → Type} [FloatOps F]

/-! ## One pixel -/

/-- One compare-accumulate stage: keep the running code `z` where `(a - b) * pc ≥ 0`, add the stage's weight (the float whose
    pattern is `bit`) where it is not. -/
def stage (pc z a b : F .f32) (bit : BitVec 32) : F .f32 :=
  Scalar.select (FloatOps.cmpf .oge (FloatOps.mulf (FloatOps.subf a b) pc) (FloatOps.ofBits .f32 0x00000000#32)) z
    (FloatOps.addf z (FloatOps.ofBits .f32 bit))

/-- The code of one pixel from its twelve neighbours `y r s` (row `r` = 1, 2, 3; column `s` = 0, 1, 2, 3): the eight stages
    with weights 128, 64, 32 (row 1), 1, 16 (row 2), 2, 4, 8 (row 3), then the quotient by 255. -/
def code (y10 y11 y12 y13 y20 y21 y22 y23 y30 y31 y32 y33 : F .f32) : F .f32 :=
  FloatOps.divf
    (stage (FloatOps.subf y21 y22)
      (stage (FloatOps.subf y21 y22)
        (stage (FloatOps.subf y21 y22)
          (stage (FloatOps.subf y21 y22)
            (stage (FloatOps.subf y21 y22)
              (stage (FloatOps.subf y21 y22)
                (stage (FloatOps.subf y21 y22)
                  (stage (FloatOps.subf y21 y22) (FloatOps.ofBits .f32 0x00000000#32) y10 y11 0x43000000#32)
                  y11 y12 0x42800000#32)
                y12 y13 0x42000000#32)
              y20 y21 0x3F800000#32)
            y22 y23 0x41800000#32)
          y30 y31 0x40000000#32)
        y31 y32 0x40800000#32)
      y32 y33 0x41000000#32)
    (FloatOps.ofBits .f32 0x437F0000#32)

/-! ## The shapes -/

/-- The image batch [32, 512, 512, 3]: batch, row, column, channel. -/
abbrev Img : Shape := ⟨4, ![32, 512, 512, 3]⟩
/-- The batch padded by two rows and columns in front and one behind: [32, 515, 515, 3]. -/
abbrev Pad : Shape := ⟨4, ![32, 515, 515, 3]⟩
/-- The padded batch with column and channel merged into one axis of 515 · 3 = 1545 entries. -/
abbrev PadM : Shape := ⟨3, ![32, 515, 1545]⟩
/-- The result with column and channel merged into one axis of 512 · 3 = 1536 entries. -/
abbrev ImgM : Shape := ⟨3, ![32, 512, 1536]⟩

/-! ## Neighbours -/

/-- In the padded batch, the neighbour `r` rows and `s` columns after pixel `i`'s corner (same batch entry, same channel). -/
def nb4 (r s : Fin 4) (i : Img.Idx) : Pad.Idx :=
  ix4 (⟨(i 0).val, (i 0).isLt⟩ : Fin 32)
    (⟨r.val + (i 1).val, by have h : (i 1).val < 512 := (i 1).isLt; omega⟩ : Fin 515)
    (⟨s.val + (i 2).val, by have h : (i 2).val < 512 := (i 2).isLt; omega⟩ : Fin 515)
    (⟨(i 3).val, (i 3).isLt⟩ : Fin 3)

/-- In the merged layout, the entry `r` rows and `q` merged places after `j` (a column is three merged places). -/
def nb3 (r : Fin 4) (q : Fin 10) (j : ImgM.Idx) : PadM.Idx :=
  ix3 (⟨(j 0).val, (j 0).isLt⟩ : Fin 32)
    (⟨r.val + (j 1).val, by have h : (j 1).val < 512 := (j 1).isLt; omega⟩ : Fin 515)
    (⟨q.val + (j 2).val, by have h : (j 2).val < 1536 := (j 2).isLt; omega⟩ : Fin 1545)

/-- Pixel `i`'s place in the merged layout: column `w`, channel `c` sit at `3 w + c`. -/
def merge (i : Img.Idx) : ImgM.Idx :=
  ix3 (⟨(i 0).val, (i 0).isLt⟩ : Fin 32) (⟨(i 1).val, (i 1).isLt⟩ : Fin 512)
    (⟨3 * (i 2).val + (i 3).val, by
      have h2 : (i 2).val < 512 := (i 2).isLt
      have h3 : (i 3).val < 3 := (i 3).isLt
      omega⟩ : Fin 1536)

/-! ## The code image, in both layouts -/

/-- The code image of a padded batch `P`: at pixel `i`, the code of its twelve neighbours. -/
def codeImage (P : Pad.Idx → F .f32) : Img.Idx → F .f32 := fun i =>
  code (P (nb4 1 0 i)) (P (nb4 1 1 i)) (P (nb4 1 2 i)) (P (nb4 1 3 i))
    (P (nb4 2 0 i)) (P (nb4 2 1 i)) (P (nb4 2 2 i)) (P (nb4 2 3 i))
    (P (nb4 3 0 i)) (P (nb4 3 1 i)) (P (nb4 3 2 i)) (P (nb4 3 3 i))

/-- The same over the merged layout: a step of one column is a step of three merged places. -/
def codeImageM (Q : PadM.Idx → F .f32) : ImgM.Idx → F .f32 := fun j =>
  code (Q (nb3 1 0 j)) (Q (nb3 1 3 j)) (Q (nb3 1 6 j)) (Q (nb3 1 9 j))
    (Q (nb3 2 0 j)) (Q (nb3 2 3 j)) (Q (nb3 2 6 j)) (Q (nb3 2 9 j))
    (Q (nb3 3 0 j)) (Q (nb3 3 3 j)) (Q (nb3 3 6 j)) (Q (nb3 3 9 j))

/-! ## Merging columns and channels commutes with taking the code -/

/-- The padded batch re-read in the merged layout, at the merged neighbour of a pixel, is the padded batch at the pixel's
    neighbour: `3 (w + s) + c = 3 s + (3 w + c)`, and row-major order does not see the merge. -/
theorem merged_nb (P : Pad.Idx → F .f32) (h : Pad.ShapeCasts PadM) (r s : Fin 4) (q : Fin 10) (hq : q.val = 3 * s.val)
    (i : Img.Idx) : shapeCast PadM P h (nb3 r q (merge i)) = P (nb4 r s i) :=
  shapeCast_apply P h _ _ (by
    rw [Shape.rowMajor_val_four, Shape.rowMajor_val_three]
    show (((i 0).val * 515 + (r.val + (i 1).val)) * 515 + (s.val + (i 2).val)) * 3 + (i 3).val
      = ((i 0).val * 515 + (r.val + (i 1).val)) * 1545 + (q.val + (3 * (i 2).val + (i 3).val))
    omega)

/-- THE LAYOUT LAW: the code image computed in the merged layout and un-merged is the code image. -/
theorem unmerge_codeImageM (P : Pad.Idx → F .f32) (h : Pad.ShapeCasts PadM) (h' : ImgM.ShapeCasts Img) :
    shapeCast Img (codeImageM (shapeCast PadM P h)) h' = codeImage P := by
  funext i
  have hi : shapeCast Img (codeImageM (shapeCast PadM P h)) h' i = codeImageM (shapeCast PadM P h) (merge i) :=
    shapeCast_apply _ h' i (merge i) (by
      rw [Shape.rowMajor_val_four, Shape.rowMajor_val_three]
      show ((i 0).val * 512 + (i 1).val) * 1536 + (3 * (i 2).val + (i 3).val)
        = (((i 0).val * 512 + (i 1).val) * 512 + (i 2).val) * 3 + (i 3).val
      omega)
  rw [hi]
  unfold codeImageM codeImage
  rw [merged_nb P h 1 0 0 rfl, merged_nb P h 1 1 3 rfl, merged_nb P h 1 2 6 rfl, merged_nb P h 1 3 9 rfl,
    merged_nb P h 2 0 0 rfl, merged_nb P h 2 1 3 rfl, merged_nb P h 2 2 6 rfl, merged_nb P h 2 3 9 rfl,
    merged_nb P h 3 0 0 rfl, merged_nb P h 3 1 3 rfl, merged_nb P h 3 2 6 rfl, merged_nb P h 3 3 9 rfl]

end Cert.Ldp

end
-- ==== Proof.KernelInput.lean ====
/-
  What the region finds in its input array: the host pads the image batch by zeros (two rows and columns in front, one
  behind) and re-reads the padded batch with column and channel merged into one axis.
-/
import proofs.«110189_j4964982194792_2_alg».proof.Proof.Gen.KernelIdeal.Frame
import proofs.«110189_j4964982194792_2_alg».proof.Proof.Spec
import Idealize.ShloMosaic.Lib.StableHlo.Run

set_option maxRecDepth 16384

noncomputable section

namespace Cert.KernelIdeal.Arr

open Cert.KernelIdeal Cert.KernelIdeal.Gen Cert.Ldp
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-! ## What the region finds -/

/-- The batch padded with the float of the integer zero: two rows and columns in front, one behind. -/
def padded (x : S32x512x512x3.Idx → F .f32) : S32x515x515x3.Idx → F .f32 :=
  pad S32x515x515x3 ![0, 2, 2, 0] ![0, 1, 1, 0] ![0, 0, 0, 0] x (sitofp .f32 (constantI S_ 32 0#32))
    pads_S32x512x512x3_S32x515x515x3_000_210_210_000 h_S_

/-- The region's input array is the padded batch with column and channel merged. -/
theorem V_main_v1 (c : Dev nD) :
    (V m c main_v1 : S32x515x1545.Idx → F .f32)
      = shapeCast S32x515x1545 (padded (m ((c : Thread nD τ).loc main_arg0))) shapeCasts_S32x515x515x3_S32x515x1545 := by
  dsimp only [V, V0]
  simp only [hostOps0, hostOps0_1, hostOps0_2, List.flatten_cons, List.flatten_nil, List.append_nil, List.cons_append,
    List.nil_append]
  after_results
  funext j
  simp only [TRef.toBuf, TRef.ofBuf, cast_eq]
  rfl

end Cert.KernelIdeal.Arr

end
-- ==== Proof.KernelBlock.lean ====
/-
  What one grid point leaves in the result block, as a function of the padded block it reads.

  A grid point handles one batch entry: it reads the merged padded block [1, 515, 1545] and fills the merged result block
  [1, 512, 1536] in four trips of 128 rows. Trip `k` loads rows 128 k … 128 k + 130 of the padded block (a chunk of 131 rows),
  computes from twelve shifted sub-blocks of the chunk the code of every pixel of rows 128 k … 128 k + 127, and stores them at
  row offset 128 k. Read back together, the four stored pieces are ONE function of the padded block: entry (0, h, q) of the
  result block is the code of the padded block's entries (0, h + r, q + 3 s), r = 1, 2, 3, s = 0, 1, 2, 3 — the trip and the
  chunk drop out, because 128 k + (r + h') = r + (128 k + h').
-/
import proofs.«110189_j4964982194792_2_alg».proof.Proof.Gen.KernelIdeal.Frame
import proofs.«110189_j4964982194792_2_alg».proof.Proof.Spec

noncomputable section

namespace Cert.KernelIdeal.Block

open Cert.KernelIdeal Cert.KernelIdeal.Gen Cert.Ldp
open Idealize.ShloMosaic Idealize.ShloMosaic.TcCoe Idealize.ShloMosaic.Tactic Idealize.ShloMosaic.ValueIdx
open Idealize.SL Idealize.SL.Sem

variable {F : FTy → Type} [FloatOps F]

/-! ## The trip's arithmetic at an index of its piece -/

/-- What a trip stores, as a function of the chunk it loaded. -/
def pay (v : Vec F S1x131x1545 .f32) : FVec F S1x128x1536 .f32 :=
  k0_pay1 (k0_pay4 v) (k0_pay5 v) (k0_pay6 v) (k0_pay7 v) (k0_pay8 v) (k0_pay9 v) (k0_pay10 v) (k0_pay11 v) (k0_pay12 v)

/-- Inside a chunk: the entry `r` rows and `q` merged places after piece index `x`. -/
def nbC (r : Fin 4) (q : Fin 10) (x : S1x128x1536.Idx) : S1x131x1545.Idx :=
  ix3 (⟨0 + (x 0).val, by have h : (x 0).val < 1 := (x 0).isLt; omega⟩ : Fin 1)
    (⟨r.val + (x 1).val, by have h : (x 1).val < 128 := (x 1).isLt; omega⟩ : Fin 131)
    (⟨q.val + (x 2).val, by have h : (x 2).val < 1536 := (x 2).isLt; omega⟩ : Fin 1545)

/-- A shifted sub-block of the chunk, read at a piece index. -/
theorem slice_at (v : S1x131x1545.Idx → F .f32) (r : Fin 4) (q : Fin 10)
    (h : S1x131x1545.Slices ![0, r.val, q.val] S1x128x1536) (x : S1x128x1536.Idx) :
    extractStridedSlice S1x128x1536 ![0, r.val, q.val] v h x = v (nbC r q x) :=
  extractStridedSlice_apply _ v h x _ (fun a => match a with
    | ⟨0, _⟩ => rfl
    | ⟨1, _⟩ => rfl
    | ⟨2, _⟩ => rfl)

/-- The trip's arithmetic at a piece index is the pixel code of the chunk's twelve shifted entries. -/
theorem pay_apply (v : Vec F S1x131x1545 .f32) (x : S1x128x1536.Idx) :
    pay v x = code (v (nbC 1 0 x)) (v (nbC 1 3 x)) (v (nbC 1 6 x)) (v (nbC 1 9 x))
      (v (nbC 2 0 x)) (v (nbC 2 3 x)) (v (nbC 2 6 x)) (v (nbC 2 9 x))
      (v (nbC 3 0 x)) (v (nbC 3 3 x)) (v (nbC 3 6 x)) (v (nbC 3 9 x)) := by
  have hv : k0_pay2 v = v := shapeCast_self v _
  have e10 : extractStridedSlice S1x128x1536 ![0, 1, 0] (k0_pay2 v) slices_S1x131x1545_o0_1_0_S1x128x1536 x = v (nbC 1 0 x) := by
    rw [hv]; exact slice_at v 1 0 _ x
  have e11 : extractStridedSlice S1x128x1536 ![0, 1, 3] (k0_pay2 v) slices_S1x131x1545_o0_1_3_S1x128x1536 x = v (nbC 1 3 x) := by
    rw [hv]; exact slice_at v 1 3 _ x
  have e12 : extractStridedSlice S1x128x1536 ![0, 1, 6] (k0_pay2 v) slices_S1x131x1545_o0_1_6_S1x128x1536 x = v (nbC 1 6 x) := by
    rw [hv]; exact slice_at v 1 6 _ x
  have e13 : extractStridedSlice S1x128x1536 ![0, 1, 9] (k0_pay2 v) slices_S1x131x1545_o0_1_9_S1x128x1536 x = v (nbC 1 9 x) := by
    rw [hv]; exact slice_at v 1 9 _ x
  have e20 : extractStridedSlice S1x128x1536 ![0, 2, 0] (k0_pay2 v) slices_S1x131x1545_o0_2_0_S1x128x1536 x = v (nbC 2 0 x) := by
    rw [hv]; exact slice_at v 2 0 _ x
  have e21 : extractStridedSlice S1x128x1536 ![0, 2, 3] (k0_pay2 v) slices_S1x131x1545_o0_2_3_S1x128x1536 x = v (nbC 2 3 x) := by
    rw [hv]; exact slice_at v 2 3 _ x
  have e22 : extractStridedSlice S1x128x1536 ![0, 2, 6] (k0_pay2 v) slices_S1x131x1545_o0_2_6_S1x128x1536 x = v (nbC 2 6 x) := by
    rw [hv]; exact slice_at v 2 6 _ x
  have e23 : extractStridedSlice S1x128x1536 ![0, 2, 9] (k0_pay2 v) slices_S1x131x1545_o0_2_9_S1x128x1536 x = v (nbC 2 9 x) := by
    rw [hv]; exact slice_at v 2 9 _ x
  have e30 : extractStridedSlice S1x128x1536 ![0, 3, 0] (k0_pay2 v) slices_S1x131x1545_o0_3_0_S1x128x1536 x = v (nbC 3 0 x) := by
    rw [hv]; exact slice_at v 3 0 _ x
  have e31 : extractStridedSlice S1x128x1536 ![0, 3, 3] (k0_pay2 v) slices_S1x131x1545_o0_3_3_S1x128x1536 x = v (nbC 3 3 x) := by
    rw [hv]; exact slice_at v 3 3 _ x
  have e32 : extractStridedSlice S1x128x1536 ![0, 3, 6] (k0_pay2 v) slices_S1x131x1545_o0_3_6_S1x128x1536 x = v (nbC 3 6 x) := by
    rw [hv]; exact slice_at v 3 6 _ x
  have e33 : extractStridedSlice S1x128x1536 ![0, 3, 9] (k0_pay2 v) slices_S1x131x1545_o0_3_9_S1x128x1536 x = v (nbC 3 9 x) := by
    rw [hv]; exact slice_at v 3 9 _ x
  rw [← e10, ← e11, ← e12, ← e13, ← e20, ← e21, ← e22, ← e23, ← e30, ← e31, ← e32, ← e33]
  rfl

/-! ## One trip's piece -/

/-- The chunk trip `k` loads from the staged padded block `x0`: 131 rows from row 128 k. -/
def chunk (x0 : S1x515x1545.Idx → F .f32) (k : Fin k0_t1_loop.trips) : Vec F S1x131x1545 .f32 :=
  View.ld x0 (Rect.unit (s := S1x515x1545) (k0_off1 k) S1x131x1545.size (k0_off1_inb k))

/-- The rectangle trip `k` stores through: 128 rows from row 128 k of the result block. -/
abbrev rowsOf (k : Fin k0_t1_loop.trips) : Rect S1x512x1536 :=
  Rect.unit (s := S1x512x1536) (k0_off2 k) S1x128x1536.size (k0_off2_inb k)

/-- THE TRIP'S ONE PIECE: through `rowsOf k`, the trip's arithmetic of the chunk it loaded. (The one place where the run's
    record of a trip is opened.) -/
theorem trip_piece (𝒱 : Variants) (c : Dev nD) (bd : Option 𝒱.V) (i : grid0.Coords)
    (arg1 : Memref sig .tc .vmem S1x515x1545 .f32) (harg1 : arg1.IsWhole)
    (arg2 : Memref sig .tc .vmem S1x512x1536 .f32) (harg2 : arg2.IsWhole)
    (X : BufTy.Contents (Elt F) arg1.view.ty) (k : Fin k0_t1_loop.trips) :
    tripL_k0_t1 (F := F) 𝒱 c bd i arg1 harg1 arg2 harg2 X k
      = [(⟨rowsOf k, pay (chunk (View.read (Elt F) arg1.view X) k)⟩ : View.Piece (Elt F) S1x512x1536 .f32)] := by
  unfold tripL_k0_t1 trip_k0_t1
  dsimp only
  sl_unfold_words
  simp only [View.readAt_eq_ld]
  rfl

/-! ## The block as one function of the padded block -/

/-- Inside the staged padded block: the entry `r` rows and `q` merged places after result index `y`. -/
def nbB (r : Fin 4) (q : Fin 10) (y : S1x512x1536.Idx) : S1x515x1545.Idx :=
  ix3 (⟨(y 0).val, (y 0).isLt⟩ : Fin 1)
    (⟨r.val + (y 1).val, by have h : (y 1).val < 512 := (y 1).isLt; omega⟩ : Fin 515)
    (⟨q.val + (y 2).val, by have h : (y 2).val < 1536 := (y 2).isLt; omega⟩ : Fin 1545)

/-- The result block as ONE function of the padded block: the pixel code, entry by entry. -/
def codeBlock (x0 : S1x515x1545.Idx → F .f32) : S1x512x1536.Idx → F .f32 := fun y =>
  code (x0 (nbB 1 0 y)) (x0 (nbB 1 3 y)) (x0 (nbB 1 6 y)) (x0 (nbB 1 9 y))
    (x0 (nbB 2 0 y)) (x0 (nbB 2 3 y)) (x0 (nbB 2 6 y)) (x0 (nbB 2 9 y))
    (x0 (nbB 3 0 y)) (x0 (nbB 3 3 y)) (x0 (nbB 3 6 y)) (x0 (nbB 3 9 y))

/-- A chunk entry is the padded block's entry 128 k rows further down: the chunk's place and the piece's place move
    together. -/
theorem chunk_at (x0 : S1x515x1545.Idx → F .f32) (k : Fin k0_t1_loop.trips) (r : Fin 4) (q : Fin 10) (x : S1x128x1536.Idx) :
    chunk x0 k (nbC r q x) = x0 (nbB r q ((rowsOf k).emb x)) := by
  unfold chunk
  show x0 ((Rect.unit (s := S1x515x1545) (k0_off1 k) S1x131x1545.size (k0_off1_inb k)).idx (nbC r q x)) = _
  refine congrArg x0 (funext fun a => Fin.ext ?_)
  have h1 := congrFun (k0_off1_eq k)
  have h2 := congrFun (k0_off2_eq k)
  match a with
  | ⟨0, _⟩ =>
    show k0_off1 k 0 + 1 * (0 + (x 0).val) = k0_off2 k 0 + 1 * (x 0).val
    have e1 : k0_off1 k 0 = 0 := h1 0
    have e2 : k0_off2 k 0 = 0 := h2 0
    omega
  | ⟨1, _⟩ =>
    show k0_off1 k 1 + 1 * (r.val + (x 1).val) = r.val + (k0_off2 k 1 + 1 * (x 1).val)
    have e1 : k0_off1 k 1 = 128 * k.val := h1 1
    have e2 : k0_off2 k 1 = 128 * k.val := h2 1
    omega
  | ⟨2, _⟩ =>
    show k0_off1 k 2 + 1 * (q.val + (x 2).val) = q.val + (k0_off2 k 2 + 1 * (x 2).val)
    have e1 : k0_off1 k 2 = 0 := h1 2
    have e2 : k0_off2 k 2 = 0 := h2 2
    omega

/-- Trip `k`'s piece is the block function restricted to its rectangle. -/
theorem piece_restricts (x0 : S1x515x1545.Idx → F .f32) (k : Fin k0_t1_loop.trips) (x : S1x128x1536.Idx) :
    pay (chunk x0 k) x = codeBlock x0 ((rowsOf k).emb x) := by
  rw [pay_apply]
  unfold codeBlock
  simp only [chunk_at]

/-- Every piece of the trips before `n` is the block function restricted to its rectangle — by induction on the trips. -/
theorem pieces_restrict (𝒱 : Variants) (c : Dev nD) (bd : Option 𝒱.V) (i : grid0.Coords)
    (arg1 : Memref sig .tc .vmem S1x515x1545 .f32) (harg1 : arg1.IsWhole)
    (arg2 : Memref sig .tc .vmem S1x512x1536 .f32) (harg2 : arg2.IsWhole)
    (X : BufTy.Contents (Elt F) arg1.view.ty) :
    ∀ n : ℕ, ∀ p ∈ pb_k0_t1 (F := F) 𝒱 c bd i arg1 harg1 arg2 harg2 X n, ∀ x : p.1.shape.Idx,
      p.2 x = codeBlock (View.read (Elt F) arg1.view X) (p.1.emb x)
  | 0 => by
    intro p hp
    rw [pb_k0_t1.eq_1] at hp
    exact absurd hp List.not_mem_nil
  | n + 1 => by
    intro p hp x
    rw [pb_k0_t1.eq_2] at hp
    unfold pb_k0_t1Step at hp
    split at hp
    · rename_i hn
      rw [trip_piece] at hp
      rcases List.mem_append.mp hp with h | h
      · obtain rfl := List.mem_singleton.mp h
        exact piece_restricts _ ⟨n, hn⟩ x
      · exact pieces_restrict 𝒱 c bd i arg1 harg1 arg2 harg2 X n p h x
    · exact pieces_restrict 𝒱 c bd i arg1 harg1 arg2 harg2 X n p hp x

/-- WHAT A GRID POINT LEAVES in the result's staging buffer: the block function of the padded block it was given. -/
theorem out_eq (c : Dev nD) (i : grid0.Coords) (arg1 : Memref sig .tc .vmem S1x515x1545 .f32) (harg1 : arg1.IsWhole)
    (arg2 : Memref sig .tc .vmem S1x512x1536 .f32) (harg2 : arg2.IsWhole) (x0 : Vec F S1x515x1545 .f32) :
    out0_A_1 c i arg1 harg1 arg2 harg2 x0 = codeBlock x0 := by
  unfold out0_A_1
  rw [View.read_writes_eq_canon _ _ _ (cover0_A_1 c i arg1 harg1 arg2 harg2 x0)]
  funext y
  have hc := cover0_A_1 c i arg1 harg1 arg2 harg2 x0 y
  have hx : View.read (Elt F) arg1.view (harg1.unread x0) = x0 := harg1.read_unread x0
  revert hc
  unfold kernelRun0_A
  dsimp only
  intro hc
  refine (View.canon_apply_of_pieces (codeBlock x0) _ ?_ y hc)
  intro p hp x
  have := pieces_restrict Variants.none c none i arg1 harg1 arg2 harg2 (harg1.unread x0) _ p hp x
  rw [hx] at this
  exact this

end Cert.KernelIdeal.Block

end
-- ==== Proof.KernelArray.lean ====
/-
  The region's result array, as one function of its input array.

  Grid point `t` is given batch entry `t` of the merged padded array and fills batch entry `t` of the merged result. What a
  point leaves is the pixel code of the block it was given, entry by entry (`Block.out_eq`), and a block's entry (0, h, q) is
  the array's entry (t, h, q) for the input and the output alike: so the merged result array is the merged code image of the
  merged padded array.
-/
import proofs.«110189_j4964982194792_2_alg».proof.Proof.KernelBlock

set_option maxRecDepth 16384

noncomputable section

namespace Cert.KernelIdeal.Arr

open Cert.KernelIdeal Cert.KernelIdeal.Gen Cert.Ldp
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-! ## A point's blocks inside the arrays -/

/-- The index maps, decided over the grid: both windows sit at the same batch entry and at the top-left of the other
    two axes. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0
    ∧ win0_1.index t (0 : Fin 3) ≤ 31 :=
  (by decide +kernel : ∀ t : Fin grid0.N, _)

/-- Every batch entry is some point's. -/
theorem idx_onto : ∀ b : Fin 32, ∃ t : Fin cfg0.N, win0_1.index t = ![b.val, 0, 0] :=
  (by decide +kernel : ∀ b : Fin 32, ∃ t : Fin grid0.N, win0_1.index t = ![b.val, 0, 0])

/-- The padded block a point is given, at a neighbour of result-block index `y`, is the input array at the same
    neighbour of `y`'s place in the result array. -/
theorem iblk_at (c : Dev nD) (t : Fin cfg0.N) (r : Fin 4) (q : Fin 10) (y : S1x512x1536.Idx) :
    iblk m c 0 t (Block.nbB r q y) = V m c main_v1 (nb3 r q (((cfg0.win 1).blk t).view.emb y)) := by
  show V m c main_v1 (((cfg0.win 0).blk t).view.emb (Block.nbB r q y)) = V m c main_v1 _
  refine congrArg (V m c main_v1) (funext fun a => Fin.ext ?_)
  obtain ⟨e0, e1, e2, e3, e4, e5⟩ := idx_facts t
  match a with
  | ⟨0, _⟩ =>
    show win0_0.index t (0 : Fin 3) * 1 + 1 * (y 0).val = win0_1.index t (0 : Fin 3) * 1 + 1 * (y 0).val
    omega
  | ⟨1, _⟩ =>
    show win0_0.index t (1 : Fin 3) * 515 + 1 * (r.val + (y 1).val) = r.val + (win0_1.index t (1 : Fin 3) * 512 + 1 * (y 1).val)
    omega
  | ⟨2, _⟩ =>
    show win0_0.index t (2 : Fin 3) * 1545 + 1 * (q.val + (y 2).val) = q.val + (win0_1.index t (2 : Fin 3) * 1536 + 1 * (y 2).val)
    omega

/-- WHAT POINT `t` WRITES BACK is block `t` of the merged code image of the input array. -/
theorem flushed_eq (c : Dev nD) (t : Fin cfg0.N) :
    (dats m 0 c).flushed 1 t = ((cfg0.win 1).blk t).view.read (Elt F) (codeImageM (V m c main_v1)) := by
  show (cfg0.win 1).cut (grid0.coords t) ((dats m 0 c).after 1 t) = _
  rw [after0_1]
  unfold outsAt0
  rw [Block.out_eq]
  funext y
  show Block.codeBlock (iblk m c 0 t) y = codeImageM (V m c main_v1) (((cfg0.win 1).blk t).view.emb y)
  unfold Block.codeBlock codeImageM
  simp only [iblk_at]

/-- An index of the result array is in point `t`'s block iff each coordinate is in the block's range on its axis. -/
theorem mem_blk (t : Fin cfg0.N) (i : S32x512x1536.Idx) :
    i ∈ ((cfg0.win 1).blk t).view.set ↔ ∀ a : Fin 3, win0_1.index t a * S1x512x1536.size a ≤ (i a).val
      ∧ (i a).val < win0_1.index t a * S1x512x1536.size a + S1x512x1536.size a := by
  show i ∈ ((View.whole main_v2).slice (win0_1.rect t)).set ↔ _
  rw [View.set_slice_whole, Rect.mem_set_unit]
  exact Iff.rfl

/-- The points' blocks cover the result array: batch entry `b` is the block of the point at `b`. -/
theorem cover (i : S32x512x1536.Idx) :
    ∃ t : Fin cfg0.N, (cfg0.win 1).flush t = true ∧ i ∈ ((cfg0.win 1).blk t).view.set := by
  have hi0 : (i 0).val < 32 := (i 0).isLt
  have hi1 : (i 1).val < 512 := (i 1).isLt
  have hi2 : (i 2).val < 1536 := (i 2).isLt
  obtain ⟨t, ht⟩ := idx_onto ⟨(i 0).val, hi0⟩
  have q0 : win0_1.index t (0 : Fin 3) = (i 0).val := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 512 ≤ (i 1).val ∧ (i 1).val < win0_1.index t (1 : Fin 3) * 512 + 512
    omega
  | ⟨2, _⟩ =>
    show win0_1.index t (2 : Fin 3) * 1536 ≤ (i 2).val ∧ (i 2).val < win0_1.index t (2 : Fin 3) * 1536 + 1536
    omega

/-- THE RESULT ARRAY of the region after the run: the merged code image of the input array. -/
theorem final (c : Dev nD) : (dats m 0 c).arrAt 1 cfg0.N = codeImageM (V m c main_v1) :=
  (dats m 0 c).arrAt_eq_of_cover 1 (codeImageM (V m c main_v1)) (fun t _ => flushed_eq m c t) cover

end Cert.KernelIdeal.Arr

end
-- ==== Proof.KernelRun.lean ====
/-
  The kernel's result, as one function of the image batch.

  The region leaves the merged code image of the merged padded batch; the host's last line un-merges it, and merging
  commutes with the code (`Ldp.unmerge_codeImageM`): the result is the code image of the padded batch.
-/
import proofs.«110189_j4964982194792_2_alg».proof.Proof.KernelInput
import proofs.«110189_j4964982194792_2_alg».proof.Proof.KernelArray

set_option maxRecDepth 16384

noncomputable section

namespace Cert.KernelIdeal.Arr

open Cert.KernelIdeal Cert.KernelIdeal.Gen Cert.Ldp
open Idealize.ShloMosaic Idealize.ShloMosaic.TcCoe Idealize.ShloMosaic.Tactic Idealize.ShloMosaic.ValueIdx
open Idealize.SL Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-! ## The host's last line, and the run -/

/-- After the host's last line the program's result is the code image of the padded batch. -/
theorem tail_eq (c : Dev nD) :
    Pipeline.afterTail₀ cfgs (dats m) 0 (V0 m) [hostOps1] c main_v3
      = codeImage (padded (m ((c : Thread nD τ).loc main_arg0))) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v2)
      = codeImageM (V m c main_v1) :=
    (Pipeline.withArrays_arr spec0 launch0.win.arr_inj c _ _ 1).trans (final m c)
  refine Eq.trans ?_ (unmerge_codeImageM (padded (m ((c : Thread nD τ).loc main_arg0)))
    shapeCasts_S32x515x515x3_S32x515x1545 shapeCasts_S32x512x1536_S32x512x512x3)
  rw [← V_main_v1 m c, ← hw]
  funext i
  simp only [cast_eq]
  rfl

/-- THE KERNEL'S RUN, read: every weakly fair execution terminates with the result at the code image of the padded batch
    and the batch unchanged. -/
theorem run : θ_run defs (onTc (τ := τ) (main (F := F))) ⟨m, fun _ => 0, ρ⟩ (fun r => ∀ c : Dev nD,
      r.2.mem ((c.tc : Thread nD τ).loc main_v3) = codeImage (padded (m ((c.tc : Thread nD τ).loc main_arg0)))
      ∧ r.2.mem ((c.tc : Thread nD τ).loc main_arg0) = m ((c.tc : Thread nD τ).loc main_arg0)) :=
  (θ_run defs _ _).mono (fun _ h c =>
      ⟨((h c).2 main_v3 (Pipeline.mem_restRefs_of main_v3 (by decide) (by decide))).trans (tail_eq m c),
        ((h c).2 main_arg0 (Pipeline.mem_restRefs_of main_arg0 (by decide) (by decide))).trans (W_main_arg0 m (dats m) c)⟩)
    (run_main m ρ)

end Cert.KernelIdeal.Arr

end
-- ==== Proof.RefValue.lean ====
/-
  The reference's result, as one function of the image batch: the code image of the padded batch.

  The reference pads the batch, takes the twelve shifted views `y r s` of the padded batch (row shift r = 1, 2, 3, column
  shift s = 0, 1, 2, 3), forms `pc = y 2 1 - y 2 2`, runs the eight compare-accumulate stages on whole arrays and divides by
  255. Every operation after the padding acts entry by entry, and a shifted view at pixel `i` is the padded batch at the
  neighbour `nb4 r s i`: so at each pixel the result is the pixel code of the twelve neighbours. The host's quotient and
  the pixel code's quotient are one operation on the extended reals.
-/
import proofs.«110189_j4964982194792_2_alg».proof.Proof.RefReadP
import proofs.«110189_j4964982194792_2_alg».proof.Proof.Spec

noncomputable section

namespace Cert.ReferenceIdeal.RefValue

open Cert.ReferenceIdeal Cert.ReferenceIdeal.ReadP Cert.Ldp
open Idealize.ShloMosaic Idealize.ShloMosaic.TcCoe Idealize.ShloMosaic.ValueIdx Idealize.SL.Sem

variable {F : FTy → Type} [FloatOps F]

/-! ## A shifted view reads a neighbour -/

/-- Two ways of writing a neighbour's coordinates agree (a zero shift is written with or without its `0 +`). -/
local macro "nb_eq" : tactic =>
  `(tactic| (funext a; apply Fin.ext; match a with
    | ⟨0, _⟩ => rfl
    | ⟨1, _⟩ => rfl
    | ⟨2, _⟩ => first | rfl | exact (Nat.zero_add _).symm
    | ⟨3, _⟩ => rfl))

theorem idx_v1 (i : S32x512x512x3.Idx) : idx_main_v1 i = nb4 1 0 i := by nb_eq
theorem idx_v2 (i : S32x512x512x3.Idx) : idx_main_v2 i = nb4 1 1 i := by nb_eq
theorem idx_v3 (i : S32x512x512x3.Idx) : idx_main_v3 i = nb4 1 2 i := by nb_eq
theorem idx_v4 (i : S32x512x512x3.Idx) : idx_main_v4 i = nb4 1 3 i := by nb_eq
theorem idx_v5 (i : S32x512x512x3.Idx) : idx_main_v5 i = nb4 2 0 i := by nb_eq
theorem idx_v6 (i : S32x512x512x3.Idx) : idx_main_v6 i = nb4 2 1 i := by nb_eq
theorem idx_v7 (i : S32x512x512x3.Idx) : idx_main_v7 i = nb4 2 2 i := by nb_eq
theorem idx_v8 (i : S32x512x512x3.Idx) : idx_main_v8 i = nb4 2 3 i := by nb_eq
theorem idx_v9 (i : S32x512x512x3.Idx) : idx_main_v9 i = nb4 3 0 i := by nb_eq
theorem idx_v10 (i : S32x512x512x3.Idx) : idx_main_v10 i = nb4 3 1 i := by nb_eq
theorem idx_v11 (i : S32x512x512x3.Idx) : idx_main_v11 i = nb4 3 2 i := by nb_eq
theorem idx_v12 (i : S32x512x512x3.Idx) : idx_main_v12 i = nb4 3 3 i := by nb_eq

/-- The shifted view `y r s` at pixel `i` is the padded batch at the neighbour. -/
theorem view_v1 (x : S32x512x512x3.Idx → F .f32) (i : S32x512x512x3.Idx) :
    val_main_v1 (F := F) x i = val_main_v0 (F := F) x (nb4 1 0 i) := by rw [val_main_v1_apply, idx_v1]
theorem view_v2 (x : S32x512x512x3.Idx → F .f32) (i : S32x512x512x3.Idx) :
    val_main_v2 (F := F) x i = val_main_v0 (F := F) x (nb4 1 1 i) := by rw [val_main_v2_apply, idx_v2]
theorem view_v3 (x : S32x512x512x3.Idx → F .f32) (i : S32x512x512x3.Idx) :
    val_main_v3 (F := F) x i = val_main_v0 (F := F) x (nb4 1 2 i) := by rw [val_main_v3_apply, idx_v3]
theorem view_v4 (x : S32x512x512x3.Idx → F .f32) (i : S32x512x512x3.Idx) :
    val_main_v4 (F := F) x i = val_main_v0 (F := F) x (nb4 1 3 i) := by rw [val_main_v4_apply, idx_v4]
theorem view_v5 (x : S32x512x512x3.Idx → F .f32) (i : S32x512x512x3.Idx) :
    val_main_v5 (F := F) x i = val_main_v0 (F := F) x (nb4 2 0 i) := by rw [val_main_v5_apply, idx_v5]
theorem view_v6 (x : S32x512x512x3.Idx → F .f32) (i : S32x512x512x3.Idx) :
    val_main_v6 (F := F) x i = val_main_v0 (F := F) x (nb4 2 1 i) := by rw [val_main_v6_apply, idx_v6]
theorem view_v7 (x : S32x512x512x3.Idx → F .f32) (i : S32x512x512x3.Idx) :
    val_main_v7 (F := F) x i = val_main_v0 (F := F) x (nb4 2 2 i) := by rw [val_main_v7_apply, idx_v7]
theorem view_v8 (x : S32x512x512x3.Idx → F .f32) (i : S32x512x512x3.Idx) :
    val_main_v8 (F := F) x i = val_main_v0 (F := F) x (nb4 2 3 i) := by rw [val_main_v8_apply, idx_v8]
theorem view_v9 (x : S32x512x512x3.Idx → F .f32) (i : S32x512x512x3.Idx) :
    val_main_v9 (F := F) x i = val_main_v0 (F := F) x (nb4 3 0 i) := by rw [val_main_v9_apply, idx_v9]
theorem view_v10 (x : S32x512x512x3.Idx → F .f32) (i : S32x512x512x3.Idx) :
    val_main_v10 (F := F) x i = val_main_v0 (F := F) x (nb4 3 1 i) := by rw [val_main_v10_apply, idx_v10]
theorem view_v11 (x : S32x512x512x3.Idx → F .f32) (i : S32x512x512x3.Idx) :
    val_main_v11 (F := F) x i = val_main_v0 (F := F) x (nb4 3 2 i) := by rw [val_main_v11_apply, idx_v11]
theorem view_v12 (x : S32x512x512x3.Idx → F .f32) (i : S32x512x512x3.Idx) :
    val_main_v12 (F := F) x i = val_main_v0 (F := F) x (nb4 3 3 i) := by rw [val_main_v12_apply, idx_v12]

/-! ## The stages, entry by entry -/

/-- The centre's horizontal derivative at a pixel. -/
theorem pc_at (x : S32x512x512x3.Idx → F .f32) (i : S32x512x512x3.Idx) :
    val_main_v13 (F := F) x i = FloatOps.subf (val_main_v6 (F := F) x i) (val_main_v7 (F := F) x i) := rfl

/-- The running code starts from the zero word. -/
theorem z0_at (i : S32x512x512x3.Idx) : val_main_v14 (F := F) i = FloatOps.ofBits .f32 0x00000000#32 := by
  rw [val_main_v14_apply, val_main_cst_apply]

/-- Stage 1 at a pixel. -/
theorem stage1_at (x : S32x512x512x3.Idx → F .f32) (i : S32x512x512x3.Idx) :
    val_main_v21 (F := F) x i
      = stage (val_main_v13 (F := F) x i) (val_main_v14 (F := F) i) (val_main_v1 (F := F) x i) (val_main_v2 (F := F) x i) 0x43000000#32 := by
  rw [val_main_v21_apply, val_main_v18_apply, val_main_v16_apply, val_main_v15_apply, val_main_v17_apply,
    val_main_cst_0_apply, val_main_v20_apply, val_main_v19_apply, val_main_cst_1_apply]
  rfl

/-- Stage 2 at a pixel. -/
theorem stage2_at (x : S32x512x512x3.Idx → F .f32) (i : S32x512x512x3.Idx) :
    val_main_v28 (F := F) x i
      = stage (val_main_v13 (F := F) x i) (val_main_v21 (F := F) x i) (val_main_v2 (F := F) x i) (val_main_v3 (F := F) x i) 0x42800000#32 := by
  rw [val_main_v28_apply, val_main_v25_apply, val_main_v23_apply, val_main_v22_apply, val_main_v24_apply,
    val_main_cst_2_apply, val_main_v27_apply, val_main_v26_apply, val_main_cst_3_apply]
  rfl

/-- Stage 3 at a pixel. -/
theorem stage3_at (x : S32x512x512x3.Idx → F .f32) (i : S32x512x512x3.Idx) :
    val_main_v35 (F := F) x i
      = stage (val_main_v13 (F := F) x i) (val_main_v28 (F := F) x i) (val_main_v3 (F := F) x i) (val_main_v4 (F := F) x i) 0x42000000#32 := by
  rw [val_main_v35_apply, val_main_v32_apply, val_main_v30_apply, val_main_v29_apply, val_main_v31_apply,
    val_main_cst_4_apply, val_main_v34_apply, val_main_v33_apply, val_main_cst_5_apply]
  rfl

/-- Stage 4 at a pixel. -/
theorem stage4_at (x : S32x512x512x3.Idx → F .f32) (i : S32x512x512x3.Idx) :
    val_main_v42 (F := F) x i
      = stage (val_main_v13 (F := F) x i) (val_main_v35 (F := F) x i) (val_main_v5 (F := F) x i) (val_main_v6 (F := F) x i) 0x3F800000#32 := by
  rw [val_main_v42_apply, val_main_v39_apply, val_main_v37_apply, val_main_v36_apply, val_main_v38_apply,
    val_main_cst_6_apply, val_main_v41_apply, val_main_v40_apply, val_main_cst_7_apply]
  rfl

/-- Stage 5 at a pixel. -/
theorem stage5_at (x : S32x512x512x3.Idx → F .f32) (i : S32x512x512x3.Idx) :
    val_main_v49 (F := F) x i
      = stage (val_main_v13 (F := F) x i) (val_main_v42 (F := F) x i) (val_main_v7 (F := F) x i) (val_main_v8 (F := F) x i) 0x41800000#32 := by
  rw [val_main_v49_apply, val_main_v46_apply, val_main_v44_apply, val_main_v43_apply, val_main_v45_apply,
    val_main_cst_8_apply, val_main_v48_apply, val_main_v47_apply, val_main_cst_9_apply]
  rfl

/-- Stage 6 at a pixel. -/
theorem stage6_at (x : S32x512x512x3.Idx → F .f32) (i : S32x512x512x3.Idx) :
    val_main_v56 (F := F) x i
      = stage (val_main_v13 (F := F) x i) (val_main_v49 (F := F) x i) (val_main_v9 (F := F) x i) (val_main_v10 (F := F) x i) 0x40000000#32 := by
  rw [val_main_v56_apply, val_main_v53_apply, val_main_v51_apply, val_main_v50_apply, val_main_v52_apply,
    val_main_cst_10_apply, val_main_v55_apply, val_main_v54_apply, val_main_cst_11_apply]
  rfl

/-- Stage 7 at a pixel. -/
theorem stage7_at (x : S32x512x512x3.Idx → F .f32) (i : S32x512x512x3.Idx) :
    val_main_v63 (F := F) x i
      = stage (val_main_v13 (F := F) x i) (val_main_v56 (F := F) x i) (val_main_v10 (F := F) x i) (val_main_v11 (F := F) x i) 0x40800000#32 := by
  rw [val_main_v63_apply, val_main_v60_apply, val_main_v58_apply, val_main_v57_apply, val_main_v59_apply,
    val_main_cst_12_apply, val_main_v62_apply, val_main_v61_apply, val_main_cst_13_apply]
  rfl

/-- Stage 8 at a pixel. -/
theorem stage8_at (x : S32x512x512x3.Idx → F .f32) (i : S32x512x512x3.Idx) :
    val_main_v70 (F := F) x i
      = stage (val_main_v13 (F := F) x i) (val_main_v63 (F := F) x i) (val_main_v11 (F := F) x i) (val_main_v12 (F := F) x i) 0x41000000#32 := by
  rw [val_main_v70_apply, val_main_v67_apply, val_main_v65_apply, val_main_v64_apply, val_main_v66_apply,
    val_main_cst_14_apply, val_main_v69_apply, val_main_v68_apply, val_main_cst_15_apply]
  rfl

/-! ## The result -/

/-- THE REFERENCE'S RESULT at the extended reals: the code image of the padded batch. -/
theorem result_eq (x : S32x512x512x3.Idx → Ideal .f32) (i : S32x512x512x3.Idx) :
    val_main_v72 (F := Ideal) x i = codeImage (F := Ideal) (val_main_v0 (F := Ideal) x) i := by
  rw [val_main_v72_apply, val_main_v71_apply, val_main_cst_16_apply, stage8_at, stage7_at, stage6_at, stage5_at, stage4_at,
    stage3_at, stage2_at, stage1_at, z0_at, pc_at]
  simp only [view_v1, view_v2, view_v3, view_v4, view_v5, view_v6, view_v7, view_v8, view_v9, view_v10, view_v11, view_v12]
  rfl

end Cert.ReferenceIdeal.RefValue

end
-- ==== Proof.lean ====
/-
  The certificate of the local-difference-pattern kernel against its jnp reference.

  Both programs pad the image batch by zeros (two rows and columns in front, one behind) and give every pixel the code of
  its 3 × 4 patch of neighbours: eight horizontal differences compared in sign with the centre's horizontal derivative,
  each disagreement adding its weight, the sum divided by 255 (`Ldp.code`). The reference does so on whole arrays of shifted
  views; the kernel merges column and channel into one axis, handles one batch entry per grid point and fills the entry in
  four trips of 128 rows. Neither the merge (`Ldp.unmerge_codeImageM`) nor the cut into entries and trips
  (`KernelIdeal.Block.out_eq`, `KernelIdeal.Arr.final`) changes what a pixel receives, so both results are the code image of
  the same padded batch (`KernelIdeal.Arr.run`, `ReferenceIdeal.RefValue.result_eq`) — the same float operations of the same
  twelve entries, so no law of arithmetic and no finiteness of the inputs is used; only the host's quotient and the kernel's
  have to be one operation, as they are on the extended reals. The idealization rewrote nothing, so `preserves` is trivial;
  the three frames are the generated frame runs and the reference's run with its result dropped.
-/
import proofs.«110189_j4964982194792_2_alg».proof.Defs
import proofs.«110189_j4964982194792_2_alg».proof.Proof.Gen.Kernel
import proofs.«110189_j4964982194792_2_alg».proof.Proof.Gen.Kernel.Skeleton
import proofs.«110189_j4964982194792_2_alg».proof.Proof.Gen.Kernel.Loops
import proofs.«110189_j4964982194792_2_alg».proof.Proof.Gen.Kernel.Launch
import proofs.«110189_j4964982194792_2_alg».proof.Proof.Gen.Kernel.Points
import proofs.«110189_j4964982194792_2_alg».proof.Proof.Gen.Kernel.Frame
import proofs.«110189_j4964982194792_2_alg».proof.Proof.Gen.KernelIdeal
import proofs.«110189_j4964982194792_2_alg».proof.Proof.Gen.KernelIdeal.Skeleton
import proofs.«110189_j4964982194792_2_alg».proof.Proof.Gen.KernelIdeal.Loops
import proofs.«110189_j4964982194792_2_alg».proof.Proof.Gen.KernelIdeal.Launch
import proofs.«110189_j4964982194792_2_alg».proof.Proof.Gen.KernelIdeal.Points
import proofs.«110189_j4964982194792_2_alg».proof.Proof.Gen.KernelIdeal.Frame
import proofs.«110189_j4964982194792_2_alg».proof.Proof.Gen.ReferenceIdeal
import proofs.«110189_j4964982194792_2_alg».proof.Proof.Gen.Pre_finite_inputs
import proofs.«110189_j4964982194792_2_alg».proof.Proof.KernelRun
import proofs.«110189_j4964982194792_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its argument: the generated frame run. -/
theorem frame_k : Cert.frame_Kernel := fun m ρ _ => Cert.Kernel.Gen.frame m ρ

/-- The idealized kernel runs and keeps its argument: the generated frame run. -/
theorem frame_ki : Cert.frame_KernelIdeal := fun m ρ _ => Cert.KernelIdeal.Gen.frame m ρ

/-- The reference runs and keeps its argument: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From batches that agree, both programs end at the code image of the padded batch. -/
theorem algebraic : Cert.algebraic_KernelIdeal_ReferenceIdeal := by
  intro m ρ m' ρ' _ hagree
  refine ⟨fun c => Cert.Ldp.codeImage (F := Ideal)
      (Cert.KernelIdeal.Arr.padded (F := Ideal) (m ((c.tc : Thread Cert.KernelIdeal.nD Cert.KernelIdeal.τ).loc Cert.KernelIdeal.main_arg0))),
    Cert.KernelIdeal.Arr.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v72_eq, hagree c]
  funext i
  rw [Cert.ReferenceIdeal.RefValue.result_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
